-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1600000x1 : Shape := ⟨2, ![1600000, 1]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S128x3 : Shape := ⟨2, ![128, 3]⟩
abbrev S3 : Shape := ⟨1, ![3]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S3 .f32) (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  let main_v54 : FVec F S3 .f32 := Host.absf main_arg13
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg9 : FVec F S3x128 .f32) (main_arg10 : FVec F S3x128x128 .f32) (main_arg11 : FVec F S3x128 .f32) (main_arg12 : FVec F S128x3 .f32) (main_arg13 : FVec F S3 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x3 .f32 := Host.absf main_arg12
  let main_cst_18 : FVec F S_ .f32 := constant S_ .f32 0x7F800000#32
  let main_v50 : FVec F S128x3 .f32 := broadcastInDim S128x3 ![] bcast_S_S128x3 main_cst_18
  fn_part3 (F := F) main_arg13 main_v48 main_v49 main_v50

def fn_part1 {F : FTy → Type} [FloatOps F] (main_arg6 : FVec F S128x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S128x3 .f32) (main_arg13 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x1 .f32) (main_arg1 : IVec S2x1600000 32) (main_arg2 : FVec F S1600000x1 .f32) (main_arg3 : IVec S100000 32) (main_arg4 : FVec F S1x128 .f32) (main_arg5 : FVec F S128 .f32) (main_arg6 : FVec F S128x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S128x3 .f32) (main_arg13 : FVec F S3 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x1 : Shape := ⟨2, ![100000, 1]⟩
abbrev S2x1600000 : Shape := ⟨2, ![2, 1600000]⟩
abbrev S1600000x1 : Shape := ⟨2, ![1600000, 1]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000x128 : Shape := ⟨2, ![100000, 128]⟩
abbrev S5000x1 : Shape := ⟨2, ![5000, 1]⟩
abbrev S5000x128 : Shape := ⟨2, ![5000, 128]⟩
abbrev S1600000x128 : Shape := ⟨2, ![1600000, 128]⟩
abbrev S1x128x128 : Shape := ⟨3, ![1, 128, 128]⟩
abbrev S1000x128 : Shape := ⟨2, ![1000, 128]⟩
abbrev S1000 : Shape := ⟨1, ![1000]⟩
abbrev S1000x1 : Shape := ⟨2, ![1000, 1]⟩
abbrev S1000x3 : Shape := ⟨2, ![1000, 3]⟩
abbrev S1x3 : Shape := ⟨2, ![1, 3]⟩

abbrev nBuf : Space → Nat
  | .hbm => 145
  | .vmem => 40
  | .smem => 0
  | _ => 0

abbrev hbmTy0_0 (i : Nat) : BufTy := match i % 128 with
  | 0 => ⟨S100000x1, .f32⟩
  | 1 => ⟨S2x1600000, .i32⟩
  | 2 => ⟨S1600000x1, .f32⟩
  | 3 => ⟨S100000, .i32⟩
  | 4 => ⟨S1x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S128x3, .f32⟩
  | 13 => ⟨S3, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x1, .f32⟩
  | 27 => ⟨S1600000x1, .f32⟩
  | 28 => ⟨S_, .f32⟩
  | 29 => ⟨S1600000x1, .f32⟩
  | 30 => ⟨S1600000x1, .f32⟩
  | 31 => ⟨S_, .f32⟩
  | 32 => ⟨S100000x1, .f32⟩
  | 33 => ⟨S1600000x1, .i32⟩
  | 34 => ⟨S100000x1, .f32⟩
  | 35 => ⟨S1x128, .f32⟩
  | 36 => ⟨S1x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x128, .f32⟩
  | 48 => ⟨S1600000x128, .f32⟩
  | 49 => ⟨S_, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1600000x128, .f32⟩
  | 77 => ⟨S1600000x128, .f32⟩
  | 78 => ⟨S_, .f32⟩
  | 79 => ⟨S1600000x128, .f32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S1x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x128, .f32⟩
  | 106 => ⟨S1600000x128, .f32⟩
  | 107 => ⟨S_, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S1x128x128, .f32⟩
  | 115 => ⟨S128x128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S1x128, .f32⟩
  | 124 => ⟨S100000x128, .f32⟩
  | 125 => ⟨S_, .f32⟩
  | 126 => ⟨S1000x128, .f32⟩
  | 127 => ⟨S100000x1, .i32⟩
  | _ => ⟨S100000x1, .f32⟩

abbrev hbmTy0_1 (i : Nat) : BufTy := match i % 128 with
  | 0 => ⟨S1000x128, .f32⟩
  | 1 => ⟨S_, .f32⟩
  | 2 => ⟨S100000, .f32⟩
  | 3 => ⟨S_, .f32⟩
  | 4 => ⟨S1000, .f32⟩
  | 5 => ⟨S100000x1, .i32⟩
  | 6 => ⟨S1000, .f32⟩
  | 7 => ⟨S_, .f32⟩
  | 8 => ⟨S1000, .f32⟩
  | 9 => ⟨S1000, .f32⟩
  | 10 => ⟨S1000x1, .f32⟩
  | 11 => ⟨S1000x128, .f32⟩
  | 12 => ⟨S1000x128, .f32⟩
  | 13 => ⟨S1000x3, .f32⟩
  | 14 => ⟨S1x3, .f32⟩
  | 15 => ⟨S1000x3, .f32⟩
  | 16 => ⟨S1000x3, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_4 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_7 : Ref sig .tc := ⟨.hbm, 96, rfl⟩
abbrev main_v67 : Ref sig .tc := ⟨.hbm, 97, rfl⟩
abbrev main_v68 : Ref sig .tc := ⟨.hbm, 98, rfl⟩
abbrev main_c_8 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call3_cst : Ref sig .tc := ⟨.hbm, 107, rfl⟩
abbrev main_call3_v0 : Ref sig .tc := ⟨.hbm, 108, rfl⟩
abbrev main_v76 : Ref sig .tc := ⟨.hbm, 109, rfl⟩
abbrev main_cst_9 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_10 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_11 : Ref sig .tc := ⟨.hbm, 129, rfl⟩
abbrev main_v94 : Ref sig .tc := ⟨.hbm, 130, rfl⟩
abbrev main_cst_12 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_13 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  bitsLt_bf16_f32 : FTy.bits .bf16 < FTy.bits .f32
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S3_S1x3_1 : S3.BroadcastsInDim S1x3 (![1] : Fin 1 → Fin S1x3.rank)
  bcast_S1x3_S1000x3_0_1 : S1x3.BroadcastsInDim S1000x3 (![0, 1] : Fin 2 → Fin S1000x3.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S5000x1_S1x128_S5000x128_1_0_0_1_n_n_wf : DotDims.WF S5000x1 S1x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x3_S1000x3_1_0_0_1_n_n_wf : DotDims.WF S1000x128 S128x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v90) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1600000x1 : Shape := ⟨2, ![1600000, 1]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000x128 : Shape := ⟨2, ![100000, 128]⟩
abbrev S1x128x128 : Shape := ⟨3, ![1, 128, 128]⟩
abbrev S1600000x128 : Shape := ⟨2, ![1600000, 128]⟩
abbrev S1000x128 : Shape := ⟨2, ![1000, 128]⟩
abbrev S1000 : Shape := ⟨1, ![1000]⟩
abbrev S1000x1 : Shape := ⟨2, ![1000, 1]⟩
abbrev S1000x3 : Shape := ⟨2, ![1000, 3]⟩
abbrev S1x3 : Shape := ⟨2, ![1, 3]⟩

abbrev nBuf : Space → Nat
  | .hbm => 193
  | .vmem => 0
  | .smem => 0
  | _ => 0

abbrev hbmTy0_0 (i : Nat) : BufTy := match i % 128 with
  | 0 => ⟨S100000x1, .f32⟩
  | 1 => ⟨S2x1600000, .i32⟩
  | 2 => ⟨S1600000x1, .f32⟩
  | 3 => ⟨S100000, .i32⟩
  | 4 => ⟨S1x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S128x3, .f32⟩
  | 13 => ⟨S3, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x1, .f32⟩
  | 27 => ⟨S1600000x1, .f32⟩
  | 28 => ⟨S_, .f32⟩
  | 29 => ⟨S1600000x1, .f32⟩
  | 30 => ⟨S1600000x1, .f32⟩
  | 31 => ⟨S_, .f32⟩
  | 32 => ⟨S100000x1, .f32⟩
  | 33 => ⟨S1600000x1, .i32⟩
  | 34 => ⟨S100000x1, .f32⟩
  | 35 => ⟨S100000x1, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x128, .f32⟩
  | 68 => ⟨S1600000x128, .f32⟩
  | 69 => ⟨S_, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S_, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x1, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S1600000x128, .f32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S1000x128, .f32⟩
  | 47 => ⟨S100000x1, .i32⟩
  | 48 => ⟨S1000x128, .f32⟩
  | 49 => ⟨S_, .f32⟩
  | 50 => ⟨S100000, .f32⟩
  | 51 => ⟨S_, .f32⟩
  | 52 => ⟨S1000, .f32⟩
  | 53 => ⟨S100000x1, .i32⟩
  | 54 => ⟨S1000, .f32⟩
  | 55 => ⟨S_, .f32⟩
  | 56 => ⟨S1000, .f32⟩
  | 57 => ⟨S1000, .f32⟩
  | 58 => ⟨S1000x1, .f32⟩
  | 59 => ⟨S1000x128, .f32⟩
  | 60 => ⟨S1000x128, .f32⟩
  | 61 => ⟨S1000x3, .f32⟩
  | 62 => ⟨S1x3, .f32⟩
  | 63 => ⟨S1000x3, .f32⟩
  | 64 => ⟨S1000x3, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_cst : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call2_cst : Ref sig .tc := ⟨.hbm, 47, rfl⟩
abbrev main_call2_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_1 : Ref sig .tc := ⟨.hbm, 58, rfl⟩
abbrev main_v35 : Ref sig .tc := ⟨.hbm, 59, rfl⟩
abbrev main_v36 : Ref sig .tc := ⟨.hbm, 60, rfl⟩
abbrev main_c_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call3_cst : Ref sig .tc := ⟨.hbm, 69, rfl⟩
abbrev main_call3_v0 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call4_cst : Ref sig .tc := ⟨.hbm, 81, rfl⟩
abbrev main_call4_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call5_cst : Ref sig .tc := ⟨.hbm, 88, rfl⟩
abbrev main_call5_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_4 : Ref sig .tc := ⟨.hbm, 99, rfl⟩
abbrev main_v67 : Ref sig .tc := ⟨.hbm, 100, rfl⟩
abbrev main_v68 : Ref sig .tc := ⟨.hbm, 101, rfl⟩
abbrev main_c_5 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call6_cst : Ref sig .tc := ⟨.hbm, 110, rfl⟩
abbrev main_call6_v0 : Ref sig .tc := ⟨.hbm, 111, rfl⟩
abbrev main_v76 : Ref sig .tc := ⟨.hbm, 112, rfl⟩
abbrev main_cst_6 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call7_cst : Ref sig .tc := ⟨.hbm, 122, rfl⟩
abbrev main_call7_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call8_cst : Ref sig .tc := ⟨.hbm, 129, rfl⟩
abbrev main_call8_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_7 : Ref sig .tc := ⟨.hbm, 140, rfl⟩
abbrev main_v99 : Ref sig .tc := ⟨.hbm, 141, rfl⟩
abbrev main_v100 : Ref sig .tc := ⟨.hbm, 142, rfl⟩
abbrev main_c_8 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call9_cst : Ref sig .tc := ⟨.hbm, 151, rfl⟩
abbrev main_call9_v0 : Ref sig .tc := ⟨.hbm, 152, rfl⟩
abbrev main_v108 : Ref sig .tc := ⟨.hbm, 153, rfl⟩
abbrev main_cst_9 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call10_cst : Ref sig .tc := ⟨.hbm, 163, rfl⟩
abbrev main_call10_v0 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_call11_cst : Ref sig .tc := ⟨.hbm, 170, rfl⟩
abbrev main_call11_v0 : Ref sig .tc := ⟨.hbm, 171, rfl⟩
abbrev main_v122 : Ref sig .tc := ⟨.hbm, 172, rfl⟩
abbrev main_cst_10 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_11 : Ref sig .tc := ⟨.hbm, 177, rfl⟩
abbrev main_v126 : Ref sig .tc := ⟨.hbm, 178, rfl⟩
abbrev main_cst_12 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_13 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S1600000x128 : S_.BroadcastsInDim S1600000x128 (![] : Fin 0 → Fin S1600000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S3_S1x3_1 : S3.BroadcastsInDim S1x3 (![1] : Fin 1 → Fin S1x3.rank)
  bcast_S1x3_S1000x3_0_1 : S1x3.BroadcastsInDim S1000x3 (![0, 1] : Fin 2 → Fin S1000x3.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x3_S1000x3_1_0_0_1_n_n_wf : DotDims.WF S1000x128 S128x3 S1000x3 [1] [0] [0] [1] [] []

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf

class Facts : Prop extends Facts₀ where

variable [Facts]
-- ==== Proof.RunNamed.lean ====
/-
  The kernel program's run with its result named.

  Every weakly fair execution of the program from any memory with zero counters terminates without a fault; at the
  end every unscoped buffer of a core holds what the fold through the program's segments — the stretches of host
  operations and the four regions — leaves in it.  Read at the result buffer this names the result; read at the
  argument buffers it says they end as launched.  The segments, their proof data and the launch are the ones of the
  program's frame; only the final reading differs: it keeps the result buffer too.
-/
import proofs.«112437_j16664473109174_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents there, the arguments end as launched. -/
theorem run : θ_run defs (onTc (τ := τ) (main (F := F))) ⟨m, fun _ => 0, ρ⟩ (fun r => ∀ c : Dev nD,
      r.2.mem ((c.tc : Thread nD τ).loc main_v106) = W17 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v106 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.RunNamed

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«112437_j16664473109174_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«112437_j16664473109174_1_alg».proof.Proof.LibDenseRows
import proofs.«112437_j16664473109174_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«112437_j16664473109174_1_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.LibGineLayers.lean ====
/-
  One layer of a graph-isomorphism network's node update, as a function of whole arrays over the extended reals,
  generic in the number of rows and in the widths.

  `layer h w b` is the dense layer cut at zero: row p, column j holds max(Σₖ h(p,k)·w(k,j) + b(j), 0).
  `gine x a w1 b1 w2 b2` is the two-layer perceptron applied to the sum x + a of a node's own features and its
  aggregated messages.  Both read row p of the result from row p of the operands only, which is what lets a block
  of rows of the result be computed from the same block of rows of the operands.

  Three spellings of one layer are read here at an entry, all at the exact instance where a change of float format
  is the identity and a matrix product into a zero accumulator is the plain sum of products:
  * the kernel body's: both operands narrowed to bf16, a product into a zero accumulator, a [1,N] bias row repeated
    down the rows, the maximum with a zero splat;
  * the host's: dot_general, the [N] bias made a [1,N] row and repeated down the rows, the maximum with a broadcast
    scalar zero;
  and the bias as the kernel receives it (the [N] vector recast as a [1,N] row) read at a column.
-/
import Idealize.ShloMosaic.Lib.ValueIdx
import Idealize.ShloMosaic.Lib.ValueLayout
import Idealize.ShloMosaic.Lib.IdealHost
import Idealize.ShloMosaic.Lib.Pipeline.Value
import Idealize.ShloMosaic.Lib.KernelVsHost
import Idealize.ShloMosaic.PureOps.Ideal.Laws
import proofs.«112437_j16664473109174_1_alg».proof.Proof.LibPlainLayers
import proofs.«112437_j16664473109174_1_alg».proof.Proof.LibGraphConv

noncomputable section

open scoped BigOperators

namespace Cert.GineLayers

open Idealize.ShloMosaic Idealize.ShloMosaic.ValueIdx

variable {R K N N' : ℕ}

/-- A dense layer cut at zero: at (p, j), max(Σₖ h(p,k)·w(k,j) + b(j), 0). -/
def layer (h : (⟨2, ![R, K]⟩ : Shape).Idx → EReal) (w : (⟨2, ![K, N]⟩ : Shape).Idx → EReal) (b : Fin N → EReal) :
    (⟨2, ![R, N]⟩ : Shape).Idx → EReal :=
  fun i => max ((∑ k : Fin K, h (ix2 (i 0) k) * w (ix2 k (i 1))) + b (i 1)) 0

theorem layer_apply (h : (⟨2, ![R, K]⟩ : Shape).Idx → EReal) (w : (⟨2, ![K, N]⟩ : Shape).Idx → EReal) (b : Fin N → EReal)
    (p : Fin R) (j : Fin N) :
    layer h w b (ix2 p j) = max ((∑ k : Fin K, h (ix2 p k) * w (ix2 k j)) + b j) 0 := rfl

/-- The node update: the two-layer perceptron of a node's features plus its aggregated messages. -/
def gine (x a : (⟨2, ![R, K]⟩ : Shape).Idx → EReal) (w1 : (⟨2, ![K, N]⟩ : Shape).Idx → EReal) (b1 : Fin N → EReal)
    (w2 : (⟨2, ![N, N']⟩ : Shape).Idx → EReal) (b2 : Fin N' → EReal) : (⟨2, ![R, N']⟩ : Shape).Idx → EReal :=
  layer (layer (fun i => x i + a i) w1 b1) w2 b2

/-- A layer's row p depends on row p of its input only: two inputs that agree on a row of one and a row of the
    other give results that agree on those rows. -/
theorem layer_row {R' : ℕ} (h : (⟨2, ![R, K]⟩ : Shape).Idx → EReal) (h' : (⟨2, ![R', K]⟩ : Shape).Idx → EReal)
    (w : (⟨2, ![K, N]⟩ : Shape).Idx → EReal) (b : Fin N → EReal) (p : Fin R) (p' : Fin R')
    (hh : ∀ k, h (ix2 p k) = h' (ix2 p' k)) (j : Fin N) :
    layer h w b (ix2 p j) = layer h' w b (ix2 p' j) := by
  rw [layer_apply, layer_apply]
  exact congrArg (fun s => max (s + b j) 0) (Finset.sum_congr rfl fun k _ => by rw [hh k])

/-- The same for the whole node update. -/
theorem gine_row {R' : ℕ} (x a : (⟨2, ![R, K]⟩ : Shape).Idx → EReal) (x' a' : (⟨2, ![R', K]⟩ : Shape).Idx → EReal)
    (w1 : (⟨2, ![K, N]⟩ : Shape).Idx → EReal) (b1 : Fin N → EReal) (w2 : (⟨2, ![N, N']⟩ : Shape).Idx → EReal)
    (b2 : Fin N' → EReal) (p : Fin R) (p' : Fin R')
    (hx : ∀ k, x (ix2 p k) = x' (ix2 p' k)) (ha : ∀ k, a (ix2 p k) = a' (ix2 p' k)) (j : Fin N') :
    gine x a w1 b1 w2 b2 (ix2 p j) = gine x' a' w1 b1 w2 b2 (ix2 p' j) := by
  unfold gine
  refine layer_row _ _ w2 b2 p p' (fun k => ?_) j
  exact layer_row _ _ w1 b1 p p' (fun l => by show x _ + a _ = x' _ + a' _; rw [hx l, ha l]) k

/-- The kernel body's layer: operands narrowed to bf16, product into a zero accumulator, bias row, cut at zero. -/
theorem body_layer (D : DotDims ⟨2, ![R, K]⟩ ⟨2, ![K, N]⟩ ⟨2, ![R, N]⟩) (hD : D = DotDims.plain R K N)
    (h : FVec Ideal ⟨2, ![R, K]⟩ .f32) (w : FVec Ideal ⟨2, ![K, N]⟩ .f32) (b : FVec Ideal ⟨2, ![1, N]⟩ .f32)
    (hb : (⟨2, ![1, N]⟩ : Shape).Broadcasts ⟨2, ![R, N]⟩) (t1 : FTy.bf16.bits < FTy.f32.bits) :
    maximumf (addf (matmul D none (truncf .bf16 h t1) (truncf .bf16 w t1) (constant ⟨2, ![R, N]⟩ .f32 0x00000000#32))
        (broadcastTo ⟨2, ![R, N]⟩ b hb)) (broadcast ⟨2, ![R, N]⟩ (Scalar.ofBits (F := Ideal) .f32 0x00000000#32))
      = layer h w (fun j => b (ix2 (0 : Fin 1) j)) := by
  funext i
  obtain ⟨p, j, rfl⟩ : ∃ (p : Fin R) (j : Fin N), i = ix2 p j := ⟨i 0, i 1, eq_ix2 i⟩
  rw [layer_apply]
  exact congrArg₂ max (congrArg₂ (· + ·)
    (Cert.PlainLayers.plainMM_of_eq D hD none (truncf .bf16 h t1) (truncf .bf16 w t1) p j)
    (broadcastTo_1b_ab_apply b hb p j)) Ideal.ofBits_zero_f32

/-- The host's layer: dot_general, the [N] bias as a [1,N] row repeated down the rows, cut at a broadcast zero. -/
theorem host_layer (D : DotDims ⟨2, ![R, K]⟩ ⟨2, ![K, N]⟩ ⟨2, ![R, N]⟩) (hD : D = DotDims.plain R K N)
    (h : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![]) :
    maximumf (addf (Host.dotGeneral D none h w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32))
      = layer h w (fun j => b (ix1 j)) := by
  funext i
  obtain ⟨p, j, rfl⟩ : ∃ (p : Fin R) (j : Fin N), i = ix2 p j := ⟨i 0, i 1, eq_ix2 i⟩
  rw [layer_apply]
  have hrow : broadcastInDim ⟨2, ![1, N]⟩ ![1] h1 b (ix2 (0 : Fin 1) j) = b (ix1 j) := by
    refine broadcastInDim_apply ![1] h1 b (ix2 (0 : Fin 1) j) (ix1 j) fun ax => ?_
    match ax with
    | ⟨0, _⟩ =>
      show j.val = if N = 1 then 0 else j.val
      split
      · have := j.isLt; omega
      · rfl
  refine congrArg₂ max ?_ ?_
  · exact (Cert.GraphConv.hostDense_apply D hD none h w _ h2 p j).trans (congrArg _ hrow)
  · exact (broadcastInDim_scalar_apply h0 _ _).trans Ideal.ofBits_zero_f32

/-- The [N] bias recast as a [1,N] row, read at a column. -/
theorem biasRow_apply (b : FVec Ideal ⟨1, ![N]⟩ .f32) (hc : (⟨1, ![N]⟩ : Shape).ShapeCasts ⟨2, ![1, N]⟩) (j : Fin N) :
    shapeCast ⟨2, ![1, N]⟩ b hc (ix2 (0 : Fin 1) j) = b (ix1 j) :=
  shapeCast_a_1a_apply b hc 0 j

end Cert.GineLayers

end
-- ==== Proof.Region0.lean ====
/-
  Region 0 of the kernel program, read as a value: the array its output window ends holding is the node update
  `gine` of the six arrays the region finds at its entry — the node features, the aggregated messages, the two
  weight matrices and the two bias rows —, row by row.

  A grid point t stages rows 5000·t … 5000·t+4999 of the features and of the messages and the whole of the weights
  and biases; the body computes the update of those rows; the write-back puts them at the same rows of the output.
  Since row p of the update depends on row p of the features and messages only, block t of the result is block t of
  the update of the whole arrays, and the twenty blocks tile the 100000 rows.
-/
import proofs.«112437_j16664473109174_1_alg».proof.Proof.Gen.KernelIdeal.Frame
import proofs.«112437_j16664473109174_1_alg».proof.Proof.LibGineLayers
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GineLayers

theorem hz : (![0, 0] : Fin 2 → Nat) = fun _ => 0 := funext fun a => by fin_cases a <;> rfl

/-- The body's arithmetic on its six loaded blocks is the node update of those blocks. -/
theorem pay_eq (x0 x1 : Vec Ideal S5000x1 .f32) (x2 : Vec Ideal S1x128 .f32) (x3 : Vec Ideal S1x128 .f32)
    (x4 : Vec Ideal S128x128 .f32) (x5 : Vec Ideal S1x128 .f32) :
    k0_pay1 (F := Ideal) x0 x1 x2 x3 x4 x5
      = gine (R := 5000) (K := 1) (N := 128) (N' := 128) x0 x1 x2 (fun j => x3 (ix2 (0 : Fin 1) j)) x4 (fun j => x5 (ix2 (0 : Fin 1) j)) := by
  unfold k0_pay1 gine
  simp only [shapeCast_self]
  exact (congrArg (fun z => maximumf (addf (matmul dot_S5000x128_S128x128_S5000x128_1_0_0_1_n_n none
      (truncf .bf16 z bitsLt_bf16_f32) (truncf .bf16 x4 bitsLt_bf16_f32) (constant S5000x128 .f32 0x00000000#32))
      (broadcastTo S5000x128 x5 broadcasts_S1x128_S5000x128)) (broadcast S5000x128 (Scalar.ofBits (F := Ideal) .f32 0x00000000#32)))
    (body_layer dot_S5000x1_S1x128_S5000x128_1_0_0_1_n_n rfl (addf x0 x1) x2 x3 broadcasts_S1x128_S5000x128 bitsLt_bf16_f32)).trans
    (body_layer dot_S5000x128_S128x128_S5000x128_1_0_0_1_n_n rfl _ x4 x5 broadcasts_S1x128_S5000x128 bitsLt_bf16_f32)

/-- The printed index maps over the twenty grid points: the features, the messages and the output move one block of
    rows per point; the weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of rows is some point's. -/
theorem idx_onto : ∀ q : Fin 20, ∃ t : Fin cfg0.N, win0_6.index t (0 : Fin 2) = q.val ∧ win0_6.index t (1 : Fin 2) = 0 :=
  (by decide +kernel : ∀ q : Fin 20, ∃ t : Fin grid0.N, _)

variable (V : (c : Dev nD) → (b : Ref sig .tc) → Buf (Elt Ideal) ((c : Thread nD τ).loc b))

/-- The region's result as one function of the arrays it finds at its entry. -/
def G (c : Dev nD) : S100000x128.Idx → EReal :=
  gine (R := 100000) (K := 1) (N := 128) (N' := 128)
    (V c main_arg0 : S100000x1.Idx → EReal) (V c main_v15 : S100000x1.Idx → EReal) (V c main_arg4 : S1x128.Idx → EReal)
    (fun j => (V c main_v16 : S1x128.Idx → EReal) (ix2 (0 : Fin 1) j)) (V c main_arg6 : S128x128.Idx → EReal)
    (fun j => (V c main_v17 : S1x128.Idx → EReal) (ix2 (0 : Fin 1) j))

/-- What point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x1) hz, View.ld_unit_zero (S := S1x128) hz, View.ld_unit_zero (S := S128x128) hz,
    View.ld_unit_zero (S := S1x128) hz]
  rw [pay_eq]
  obtain ⟨e00, e01, e10, e11, e20, e21, e30, e31, e40, e41, e50, e51, e60, e61⟩ := idx_facts t
  have hw1 : iblk0 V c 2 t = (V c main_arg4 : S1x128.Idx → EReal) := by
    funext y
    show V c main_arg4 (((cfg0.win 2).blk t).view.emb y) = V c main_arg4 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  have hb1 : iblk0 V c 3 t = (V c main_v16 : S1x128.Idx → EReal) := by
    funext y
    show V c main_v16 (((cfg0.win 3).blk t).view.emb y) = V c main_v16 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have hw2 : iblk0 V c 4 t = (V c main_arg6 : S128x128.Idx → EReal) := by
    funext y
    show V c main_arg6 (((cfg0.win 4).blk t).view.emb y) = V c main_arg6 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hb2 : iblk0 V c 5 t = (V c main_v17 : S1x128.Idx → EReal) := by
    funext y
    show V c main_v17 (((cfg0.win 5).blk t).view.emb y) = V c main_v17 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [hw1, hb1, hw2, hb2]
  funext j
  obtain ⟨p, q, rfl⟩ : ∃ (p : Fin 5000) (q : Fin 128), j = ix2 p q := ⟨j 0, j 1, eq_ix2 j⟩
  have hp : win0_6.index t (0 : Fin 2) * 5000 + 1 * p.val < 100000 := by
    have := p.isLt; have := t.isLt; have hN : cfg0.N = 20 := N_0; omega
  have hemb : ((cfg0.win 6).blk t).view.emb (ix2 p q) = ix2 (⟨win0_6.index t (0 : Fin 2) * 5000 + 1 * p.val, hp⟩ : Fin 100000) q := by
    funext a; apply Fin.ext
    match a with
    | ⟨0, _⟩ => rfl
    | ⟨1, _⟩ => show win0_6.index t (1 : Fin 2) * 128 + 1 * q.val = q.val; omega
  show gine (R := 5000) (K := 1) (N := 128) (N' := 128) (iblk0 V c 0 t) (iblk0 V c 1 t) _ _ _ _ (ix2 p q)
      = G V c (((cfg0.win 6).blk t).view.emb (ix2 p q))
  rw [hemb]
  unfold G
  refine gine_row _ _ _ _ _ _ _ _ p _ (fun l => ?_) (fun l => ?_) q
  · show V c main_arg0 (((cfg0.win 0).blk t).view.emb (ix2 p l)) = V c main_arg0 _
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 1 + 1 * l.val = l.val; omega
  · show V c main_v15 (((cfg0.win 1).blk t).view.emb (ix2 p l)) = V c main_v15 _
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 1 + 1 * l.val = l.val; omega

/-- An index of the output array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- The twenty blocks of rows tile the output array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    have : win0_6.index t (0 : Fin 2) = (i 0).val / 5000 := q0
    omega
  | ⟨1, _⟩ =>
    show win0_6.index t (1 : Fin 2) * 128 ≤ (i 1).val ∧ (i 1).val < win0_6.index t (1 : Fin 2) * 128 + 128
    omega

/-- The output array after the region: the node update of the arrays found at its entry. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Region1.lean ====
/-
  Region 1 of the kernel program, read as a value: the array its output window ends holding is the node update
  `gine` of the six arrays the region finds at its entry — the node features, the aggregated messages, the two
  weight matrices and the two bias rows —, row by row.

  A grid point t stages rows 5000·t … 5000·t+4999 of the features and of the messages and the whole of the weights
  and biases; the body computes the update of those rows; the write-back puts them at the same rows of the output.
  Since row p of the update depends on row p of the features and messages only, block t of the result is block t of
  the update of the whole arrays, and the twenty blocks tile the 100000 rows.
-/
import proofs.«112437_j16664473109174_1_alg».proof.Proof.Gen.KernelIdeal.Frame
import proofs.«112437_j16664473109174_1_alg».proof.Proof.LibGineLayers
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GineLayers

theorem hz : (![0, 0] : Fin 2 → Nat) = fun _ => 0 := funext fun a => by fin_cases a <;> rfl

/-- The body's arithmetic on its six loaded blocks is the node update of those blocks. -/
theorem pay_eq (x0 x1 : Vec Ideal S5000x128 .f32) (x2 : Vec Ideal S128x128 .f32) (x3 : Vec Ideal S1x128 .f32)
    (x4 : Vec Ideal S128x128 .f32) (x5 : Vec Ideal S1x128 .f32) :
    k1_pay1 (F := Ideal) x0 x1 x2 x3 x4 x5
      = gine (R := 5000) (K := 128) (N := 128) (N' := 128) x0 x1 x2 (fun j => x3 (ix2 (0 : Fin 1) j)) x4 (fun j => x5 (ix2 (0 : Fin 1) j)) := by
  unfold k1_pay1 gine
  simp only [shapeCast_self]
  exact (congrArg (fun z => maximumf (addf (matmul dot_S5000x128_S128x128_S5000x128_1_0_0_1_n_n none
      (truncf .bf16 z bitsLt_bf16_f32) (truncf .bf16 x4 bitsLt_bf16_f32) (constant S5000x128 .f32 0x00000000#32))
      (broadcastTo S5000x128 x5 broadcasts_S1x128_S5000x128)) (broadcast S5000x128 (Scalar.ofBits (F := Ideal) .f32 0x00000000#32)))
    (body_layer dot_S5000x128_S128x128_S5000x128_1_0_0_1_n_n rfl (addf x0 x1) x2 x3 broadcasts_S1x128_S5000x128 bitsLt_bf16_f32)).trans
    (body_layer dot_S5000x128_S128x128_S5000x128_1_0_0_1_n_n rfl _ x4 x5 broadcasts_S1x128_S5000x128 bitsLt_bf16_f32)

/-- The printed index maps over the twenty grid points: the features, the messages and the output move one block of
    rows per point; the weights and biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block of rows is some point's. -/
theorem idx_onto : ∀ q : Fin 20, ∃ t : Fin cfg1.N, win1_6.index t (0 : Fin 2) = q.val ∧ win1_6.index t (1 : Fin 2) = 0 :=
  (by decide +kernel : ∀ q : Fin 20, ∃ t : Fin grid1.N, _)

variable (V : (c : Dev nD) → (b : Ref sig .tc) → Buf (Elt Ideal) ((c : Thread nD τ).loc b))

/-- The region's result as one function of the arrays it finds at its entry. -/
def G (c : Dev nD) : S100000x128.Idx → EReal :=
  gine (R := 100000) (K := 128) (N := 128) (N' := 128)
    (V c main_v18 : S100000x128.Idx → EReal) (V c main_v31 : S100000x128.Idx → EReal) (V c main_v33 : S128x128.Idx → EReal)
    (fun j => (V c main_v40 : S1x128.Idx → EReal) (ix2 (0 : Fin 1) j)) (V c main_v37 : S128x128.Idx → EReal)
    (fun j => (V c main_v41 : S1x128.Idx → EReal) (ix2 (0 : Fin 1) j))

/-- What point t writes back is block t of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S128x128) hz,
    View.ld_unit_zero (S := S1x128) hz]
  rw [pay_eq]
  obtain ⟨e00, e01, e10, e11, e20, e21, e30, e31, e40, e41, e50, e51, e60, e61⟩ := idx_facts t
  have hw1 : iblk1 V c 2 t = (V c main_v33 : S128x128.Idx → EReal) := by
    funext y
    show V c main_v33 (((cfg1.win 2).blk t).view.emb y) = V c main_v33 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hb1 : iblk1 V c 3 t = (V c main_v40 : S1x128.Idx → EReal) := by
    funext y
    show V c main_v40 (((cfg1.win 3).blk t).view.emb y) = V c main_v40 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have hw2 : iblk1 V c 4 t = (V c main_v37 : S128x128.Idx → EReal) := by
    funext y
    show V c main_v37 (((cfg1.win 4).blk t).view.emb y) = V c main_v37 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hb2 : iblk1 V c 5 t = (V c main_v41 : S1x128.Idx → EReal) := by
    funext y
    show V c main_v41 (((cfg1.win 5).blk t).view.emb y) = V c main_v41 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [hw1, hb1, hw2, hb2]
  funext j
  obtain ⟨p, q, rfl⟩ : ∃ (p : Fin 5000) (q : Fin 128), j = ix2 p q := ⟨j 0, j 1, eq_ix2 j⟩
  have hp : win1_6.index t (0 : Fin 2) * 5000 + 1 * p.val < 100000 := by
    have := p.isLt; have := t.isLt; have hN : cfg1.N = 20 := N_1; omega
  have hemb : ((cfg1.win 6).blk t).view.emb (ix2 p q) = ix2 (⟨win1_6.index t (0 : Fin 2) * 5000 + 1 * p.val, hp⟩ : Fin 100000) q := by
    funext a; apply Fin.ext
    match a with
    | ⟨0, _⟩ => rfl
    | ⟨1, _⟩ => show win1_6.index t (1 : Fin 2) * 128 + 1 * q.val = q.val; omega
  show gine (R := 5000) (K := 128) (N := 128) (N' := 128) (iblk1 V c 0 t) (iblk1 V c 1 t) _ _ _ _ (ix2 p q)
      = G V c (((cfg1.win 6).blk t).view.emb (ix2 p q))
  rw [hemb]
  unfold G
  refine gine_row _ _ _ _ _ _ _ _ p _ (fun l => ?_) (fun l => ?_) q
  · show V c main_v18 (((cfg1.win 0).blk t).view.emb (ix2 p l)) = V c main_v18 _
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * l.val = l.val; omega
  · show V c main_v31 (((cfg1.win 1).blk t).view.emb (ix2 p l)) = V c main_v31 _
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * l.val = l.val; omega

/-- An index of the output array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v42).slice (win1_6.rect t)).set ↔ _
  rw [View.set_slice_whole, Rect.mem_set_unit]
  exact Iff.rfl

/-- The twenty blocks of rows tile the output array. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    have : win1_6.index t (0 : Fin 2) = (i 0).val / 5000 := q0
    omega
  | ⟨1, _⟩ =>
    show win1_6.index t (1 : Fin 2) * 128 ≤ (i 1).val ∧ (i 1).val < win1_6.index t (1 : Fin 2) * 128 + 128
    omega

/-- The output array after the region: the node update of the arrays found at its entry. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.Region2.lean ====
/-
  Region 2 of the kernel program, read as a value: the array its output window ends holding is the node update
  `gine` of the six arrays the region finds at its entry — the node features, the aggregated messages, the two
  weight matrices and the two bias rows —, row by row.

  A grid point t stages rows 5000·t … 5000·t+4999 of the features and of the messages and the whole of the weights
  and biases; the body computes the update of those rows; the write-back puts them at the same rows of the output.
  Since row p of the update depends on row p of the features and messages only, block t of the result is block t of
  the update of the whole arrays, and the twenty blocks tile the 100000 rows.
-/
import proofs.«112437_j16664473109174_1_alg».proof.Proof.Gen.KernelIdeal.Frame
import proofs.«112437_j16664473109174_1_alg».proof.Proof.LibGineLayers
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GineLayers

theorem hz : (![0, 0] : Fin 2 → Nat) = fun _ => 0 := funext fun a => by fin_cases a <;> rfl

/-- The body's arithmetic on its six loaded blocks is the node update of those blocks. -/
theorem pay_eq (x0 x1 : Vec Ideal S5000x128 .f32) (x2 : Vec Ideal S128x128 .f32) (x3 : Vec Ideal S1x128 .f32)
    (x4 : Vec Ideal S128x128 .f32) (x5 : Vec Ideal S1x128 .f32) :
    k2_pay1 (F := Ideal) x0 x1 x2 x3 x4 x5
      = gine (R := 5000) (K := 128) (N := 128) (N' := 128) x0 x1 x2 (fun j => x3 (ix2 (0 : Fin 1) j)) x4 (fun j => x5 (ix2 (0 : Fin 1) j)) := by
  unfold k2_pay1 gine
  simp only [shapeCast_self]
  exact (congrArg (fun z => maximumf (addf (matmul dot_S5000x128_S128x128_S5000x128_1_0_0_1_n_n none
      (truncf .bf16 z bitsLt_bf16_f32) (truncf .bf16 x4 bitsLt_bf16_f32) (constant S5000x128 .f32 0x00000000#32))
      (broadcastTo S5000x128 x5 broadcasts_S1x128_S5000x128)) (broadcast S5000x128 (Scalar.ofBits (F := Ideal) .f32 0x00000000#32)))
    (body_layer dot_S5000x128_S128x128_S5000x128_1_0_0_1_n_n rfl (addf x0 x1) x2 x3 broadcasts_S1x128_S5000x128 bitsLt_bf16_f32)).trans
    (body_layer dot_S5000x128_S128x128_S5000x128_1_0_0_1_n_n rfl _ x4 x5 broadcasts_S1x128_S5000x128 bitsLt_bf16_f32)

/-- The printed index maps over the twenty grid points: the features, the messages and the output move one block of
    rows per point; the weights and biases stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every block of rows is some point's. -/
theorem idx_onto : ∀ q : Fin 20, ∃ t : Fin cfg2.N, win2_6.index t (0 : Fin 2) = q.val ∧ win2_6.index t (1 : Fin 2) = 0 :=
  (by decide +kernel : ∀ q : Fin 20, ∃ t : Fin grid2.N, _)

variable (V : (c : Dev nD) → (b : Ref sig .tc) → Buf (Elt Ideal) ((c : Thread nD τ).loc b))

/-- The region's result as one function of the arrays it finds at its entry. -/
def G (c : Dev nD) : S100000x128.Idx → EReal :=
  gine (R := 100000) (K := 128) (N := 128) (N' := 128)
    (V c main_v42 : S100000x128.Idx → EReal) (V c main_v55 : S100000x128.Idx → EReal) (V c main_v57 : S128x128.Idx → EReal)
    (fun j => (V c main_v64 : S1x128.Idx → EReal) (ix2 (0 : Fin 1) j)) (V c main_v61 : S128x128.Idx → EReal)
    (fun j => (V c main_v65 : S1x128.Idx → EReal) (ix2 (0 : Fin 1) j))

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S128x128) hz,
    View.ld_unit_zero (S := S1x128) hz]
  rw [pay_eq]
  obtain ⟨e00, e01, e10, e11, e20, e21, e30, e31, e40, e41, e50, e51, e60, e61⟩ := idx_facts t
  have hw1 : iblk2 V c 2 t = (V c main_v57 : S128x128.Idx → EReal) := by
    funext y
    show V c main_v57 (((cfg2.win 2).blk t).view.emb y) = V c main_v57 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hb1 : iblk2 V c 3 t = (V c main_v64 : S1x128.Idx → EReal) := by
    funext y
    show V c main_v64 (((cfg2.win 3).blk t).view.emb y) = V c main_v64 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have hw2 : iblk2 V c 4 t = (V c main_v61 : S128x128.Idx → EReal) := by
    funext y
    show V c main_v61 (((cfg2.win 4).blk t).view.emb y) = V c main_v61 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hb2 : iblk2 V c 5 t = (V c main_v65 : S1x128.Idx → EReal) := by
    funext y
    show V c main_v65 (((cfg2.win 5).blk t).view.emb y) = V c main_v65 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  rw [hw1, hb1, hw2, hb2]
  funext j
  obtain ⟨p, q, rfl⟩ : ∃ (p : Fin 5000) (q : Fin 128), j = ix2 p q := ⟨j 0, j 1, eq_ix2 j⟩
  have hp : win2_6.index t (0 : Fin 2) * 5000 + 1 * p.val < 100000 := by
    have := p.isLt; have := t.isLt; have hN : cfg2.N = 20 := N_2; omega
  have hemb : ((cfg2.win 6).blk t).view.emb (ix2 p q) = ix2 (⟨win2_6.index t (0 : Fin 2) * 5000 + 1 * p.val, hp⟩ : Fin 100000) q := by
    funext a; apply Fin.ext
    match a with
    | ⟨0, _⟩ => rfl
    | ⟨1, _⟩ => show win2_6.index t (1 : Fin 2) * 128 + 1 * q.val = q.val; omega
  show gine (R := 5000) (K := 128) (N := 128) (N' := 128) (iblk2 V c 0 t) (iblk2 V c 1 t) _ _ _ _ (ix2 p q)
      = G V c (((cfg2.win 6).blk t).view.emb (ix2 p q))
  rw [hemb]
  unfold G
  refine gine_row _ _ _ _ _ _ _ _ p _ (fun l => ?_) (fun l => ?_) q
  · show V c main_v42 (((cfg2.win 0).blk t).view.emb (ix2 p l)) = V c main_v42 _
    refine congrArg _ (funext fun a => Fin.ext ?_)
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * l.val = l.val; omega
  · show V c main_v55 (((cfg2.win 1).blk t).view.emb (ix2 p l)) = V c main_v55 _
    refine congrArg _ (funext fun a => Fin.ext ?_)
    match a with
    | ⟨0, _⟩ => show win2_1.index t (0 : Fin 2) * 5000 + 1 * p.val = win2_6.index t (0 : Fin 2) * 5000 + 1 * p.val; omega
    | ⟨1, _⟩ => show win2_1.index t (1 : Fin 2) * 128 + 1 * l.val = l.val; omega

/-- An index of the output array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v66).slice (win2_6.rect t)).set ↔ _
  rw [View.set_slice_whole, Rect.mem_set_unit]
  exact Iff.rfl

/-- The twenty blocks of rows tile the output array. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    have : win2_6.index t (0 : Fin 2) = (i 0).val / 5000 := q0
    omega
  | ⟨1, _⟩ =>
    show win2_6.index t (1 : Fin 2) * 128 ≤ (i 1).val ∧ (i 1).val < win2_6.index t (1 : Fin 2) * 128 + 128
    omega

/-- The output array after the region: the node update of the arrays found at its entry. -/
theorem final (c : Dev nD) : (dat2 V c).arrAt 6 cfg2.N = G V c :=
  (dat2 V c).arrAt_eq_of_cover 6 (G V c) (fun t _ => flushed_eq V c t) (cover)

end Cert.KernelIdeal.Region2

end
-- ==== Proof.Region3.lean ====
/-
  Region 3 of the kernel program, read as a value: the array its output window ends holding is the node update
  `gine` of the six arrays the region finds at its entry — the node features, the aggregated messages, the two
  weight matrices and the two bias rows —, row by row.

  A grid point t stages rows 5000·t … 5000·t+4999 of the features and of the messages and the whole of the weights
  and biases; the body computes the update of those rows; the write-back puts them at the same rows of the output.
  Since row p of the update depends on row p of the features and messages only, block t of the result is block t of
  the update of the whole arrays, and the twenty blocks tile the 100000 rows.
-/
import proofs.«112437_j16664473109174_1_alg».proof.Proof.Gen.KernelIdeal.Frame
import proofs.«112437_j16664473109174_1_alg».proof.Proof.LibGineLayers
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.GineLayers

theorem hz : (![0, 0] : Fin 2 → Nat) = fun _ => 0 := funext fun a => by fin_cases a <;> rfl

/-- The body's arithmetic on its six loaded blocks is the node update of those blocks. -/
theorem pay_eq (x0 x1 : Vec Ideal S5000x128 .f32) (x2 : Vec Ideal S128x128 .f32) (x3 : Vec Ideal S1x128 .f32)
    (x4 : Vec Ideal S128x128 .f32) (x5 : Vec Ideal S1x128 .f32) :
    k3_pay1 (F := Ideal) x0 x1 x2 x3 x4 x5
      = gine (R := 5000) (K := 128) (N := 128) (N' := 128) x0 x1 x2 (fun j => x3 (ix2 (0 : Fin 1) j)) x4 (fun j => x5 (ix2 (0 : Fin 1) j)) := by
  unfold k3_pay1 gine
  simp only [shapeCast_self]
  exact (congrArg (fun z => maximumf (addf (matmul dot_S5000x128_S128x128_S5000x128_1_0_0_1_n_n none
      (truncf .bf16 z bitsLt_bf16_f32) (truncf .bf16 x4 bitsLt_bf16_f32) (constant S5000x128 .f32 0x00000000#32))
      (broadcastTo S5000x128 x5 broadcasts_S1x128_S5000x128)) (broadcast S5000x128 (Scalar.ofBits (F := Ideal) .f32 0x00000000#32)))
    (body_layer dot_S5000x128_S128x128_S5000x128_1_0_0_1_n_n rfl (addf x0 x1) x2 x3 broadcasts_S1x128_S5000x128 bitsLt_bf16_f32)).trans
    (body_layer dot_S5000x128_S128x128_S5000x128_1_0_0_1_n_n rfl _ x4 x5 broadcasts_S1x128_S5000x128 bitsLt_bf16_f32)

/-- The printed index maps over the twenty grid points: the features, the messages and the output move one block of
    rows per point; the weights and biases stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Every block of rows is some point's. -/
theorem idx_onto : ∀ q : Fin 20, ∃ t : Fin cfg3.N, win3_6.index t (0 : Fin 2) = q.val ∧ win3_6.index t (1 : Fin 2) = 0 :=
  (by decide +kernel : ∀ q : Fin 20, ∃ t : Fin grid3.N, _)

variable (V : (c : Dev nD) → (b : Ref sig .tc) → Buf (Elt Ideal) ((c : Thread nD τ).loc b))

/-- The region's result as one function of the arrays it finds at its entry. -/
def G (c : Dev nD) : S100000x128.Idx → EReal :=
  gine (R := 100000) (K := 128) (N := 128) (N' := 128)
    (V c main_v66 : S100000x128.Idx → EReal) (V c main_v79 : S100000x128.Idx → EReal) (V c main_v81 : S128x128.Idx → EReal)
    (fun j => (V c main_v88 : S1x128.Idx → EReal) (ix2 (0 : Fin 1) j)) (V c main_v85 : S128x128.Idx → EReal)
    (fun j => (V c main_v89 : S1x128.Idx → EReal) (ix2 (0 : Fin 1) j))

/-- What point t writes back is block t of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S128x128) hz,
    View.ld_unit_zero (S := S1x128) hz]
  rw [pay_eq]
  obtain ⟨e00, e01, e10, e11, e20, e21, e30, e31, e40, e41, e50, e51, e60, e61⟩ := idx_facts t
  have hw1 : iblk3 V c 2 t = (V c main_v81 : S128x128.Idx → EReal) := by
    funext y
    show V c main_v81 (((cfg3.win 2).blk t).view.emb y) = V c main_v81 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  have hb1 : iblk3 V c 3 t = (V c main_v88 : S1x128.Idx → EReal) := by
    funext y
    show V c main_v88 (((cfg3.win 3).blk t).view.emb y) = V c main_v88 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  have hw2 : iblk3 V c 4 t = (V c main_v85 : S128x128.Idx → EReal) := by
    funext y
    show V c main_v85 (((cfg3.win 4).blk t).view.emb y) = V c main_v85 y
    refine congrArg _ (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hb2 : iblk3 V c 5 t = (V c main_v89 : S1x128.Idx → EReal) := by
    funext y
    show V c main_v89 (((cfg3.win 5).blk t).view.emb y) = V c main_v89 y
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 128 + 1 * (y 1).val = (y 1).val; omega
  rw [hw1, hb1, hw2, hb2]
  funext j
  obtain ⟨p, q, rfl⟩ : ∃ (p : Fin 5000) (q : Fin 128), j = ix2 p q := ⟨j 0, j 1, eq_ix2 j⟩
  have hp : win3_6.index t (0 : Fin 2) * 5000 + 1 * p.val < 100000 := by
    have := p.isLt; have := t.isLt; have hN : cfg3.N = 20 := N_3; omega
  have hemb : ((cfg3.win 6).blk t).view.emb (ix2 p q) = ix2 (⟨win3_6.index t (0 : Fin 2) * 5000 + 1 * p.val, hp⟩ : Fin 100000) q := by
    funext a; apply Fin.ext
    match a with
    | ⟨0, _⟩ => rfl
    | ⟨1, _⟩ => show win3_6.index t (1 : Fin 2) * 128 + 1 * q.val = q.val; omega
  show gine (R := 5000) (K := 128) (N := 128) (N' := 128) (iblk3 V c 0 t) (iblk3 V c 1 t) _ _ _ _ (ix2 p q)
      = G V c (((cfg3.win 6).blk t).view.emb (ix2 p q))
  rw [hemb]
  unfold G
  refine gine_row _ _ _ _ _ _ _ _ p _ (fun l => ?_) (fun l => ?_) q
  · show V c main_v66 (((cfg3.win 0).blk t).view.emb (ix2 p l)) = V c main_v66 _
    refine congrArg _ (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * l.val = l.val; omega
  · show V c main_v79 (((cfg3.win 1).blk t).view.emb (ix2 p l)) = V c main_v79 _
    refine congrArg _ (funext fun a => Fin.ext ?_)
    match a with
    | ⟨0, _⟩ => show win3_1.index t (0 : Fin 2) * 5000 + 1 * p.val = win3_6.index t (0 : Fin 2) * 5000 + 1 * p.val; omega
    | ⟨1, _⟩ => show win3_1.index t (1 : Fin 2) * 128 + 1 * l.val = l.val; omega

/-- An index of the output array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v90).slice (win3_6.rect t)).set ↔ _
  rw [View.set_slice_whole, Rect.mem_set_unit]
  exact Iff.rfl

/-- The twenty blocks of rows tile the output array. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    have : win3_6.index t (0 : Fin 2) = (i 0).val / 5000 := q0
    omega
  | ⟨1, _⟩ =>
    show win3_6.index t (1 : Fin 2) * 128 ≤ (i 1).val ∧ (i 1).val < win3_6.index t (1 : Fin 2) * 128 + 128
    omega

/-- The output array after the region: the node update of the arrays found at its entry. -/
theorem final (c : Dev nD) : (dat3 V c).arrAt 6 cfg3.N = G V c :=
  (dat3 V c).arrAt_eq_of_cover 6 (G V c) (fun t _ => flushed_eq V c t) (cover)

end Cert.KernelIdeal.Region3

end
-- ==== Proof.RefLayers.lean ====
/-
  The reference program's four layers, each read as the node update `gine` of the stage before it.

  The reference spells a layer as: features plus aggregated messages; dot_general with the first weight matrix; the
  bias vector made a row and repeated down the rows; maximum with a broadcast zero; the same again with the second
  weight matrix and bias.  At the exact instance each half is one dense layer cut at zero, so the whole is `gine`.
-/
import proofs.«112437_j16664473109174_1_alg».proof.Proof.Gen.ReferenceIdeal.Read
import proofs.«112437_j16664473109174_1_alg».proof.Proof.LibGineLayers

set_option maxRecDepth 16384

noncomputable section

namespace Cert.ReferenceIdeal.Layers

open Cert.ReferenceIdeal Cert.ReferenceIdeal.Read Idealize.ShloMosaic Idealize.ShloMosaic.ValueIdx Cert.GineLayers

/-- The first layer: scalar node features, a [1,128] first weight matrix. -/
theorem layer0 (x0 : (⟨S100000x1, .f32⟩ : BufTy).Contents (Elt Ideal)) (x1 : (⟨S2x1600000, .i32⟩ : BufTy).Contents (Elt Ideal)) (x2 : (⟨S1600000x1, .f32⟩ : BufTy).Contents (Elt Ideal)) (x4 : (⟨S1x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v26 (F := Ideal) x0 x1 x2 x4 x5 x6 x7
      = gine (R := 100000) (K := 1) (N := 128) (N' := 128) x0 (val_main_v15 (F := Ideal) x0 x1 x2) x4 (fun j => x5 (ix1 j)) x6 (fun j => x7 (ix1 j)) := by
  unfold val_main_v26 val_main_v25 val_main_v24 val_main_v23 val_main_v22 val_main_v21 val_main_v20 val_main_v19 val_main_v18
    val_main_v17 val_main_v16 val_main_call2_v0 val_main_call2_cst val_main_call1_v0 val_main_call1_cst gine
  refine (host_layer dot_S100000x128_S128x128_S100000x128_1_0_0_1_n_n rfl _ x6 x7
    _ _ _).trans ?_
  refine congrArg (fun z => layer z x6 (fun j => x7 (ix1 j))) ?_
  exact host_layer dot_S100000x1_S1x128_S100000x128_1_0_0_1_n_n rfl (addf x0 (val_main_v15 (F := Ideal) x0 x1 x2)) x4 x5
    _ _ _

/-- The reference's layer ending at stage 58: the node update of the previous layer's result, its aggregated
    messages, and this layer's weights and biases. -/
theorem layer1 (x0 : (⟨S100000x1, .f32⟩ : BufTy).Contents (Elt Ideal)) (x1 : (⟨S2x1600000, .i32⟩ : BufTy).Contents (Elt Ideal)) (x2 : (⟨S1600000x1, .f32⟩ : BufTy).Contents (Elt Ideal)) (x4 : (⟨S1x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) :
    val_main_v58 (F := Ideal) x0 x1 x2 x4 x5 x6 x7 x8 x9 x10 x11
      = gine (R := 100000) (K := 128) (N := 128) (N' := 128) (val_main_v26 (F := Ideal) x0 x1 x2 x4 x5 x6 x7) (val_main_v47 (F := Ideal) x0 x1 x2 x4 x5 x6 x7)
          (val_main_v28 (F := Ideal) x8) (fun j => val_main_v30 (F := Ideal) x9 (ix1 j))
          (val_main_v32 (F := Ideal) x10) (fun j => val_main_v34 (F := Ideal) x11 (ix1 j)) := by
  unfold val_main_v58 val_main_v57 val_main_v56 val_main_v55 val_main_v54 val_main_v53 val_main_v52 val_main_v51 val_main_v50 val_main_v49 val_main_v48 val_main_call4_v0 val_main_call4_cst val_main_call5_v0 val_main_call5_cst gine
  refine (host_layer dot_S100000x128_S128x128_S100000x128_1_0_0_1_n_n rfl _ (val_main_v32 (F := Ideal) x10) (val_main_v34 (F := Ideal) x11)
    _ _ _).trans ?_
  refine congrArg (fun z => layer z (val_main_v32 (F := Ideal) x10) (fun j => val_main_v34 (F := Ideal) x11 (ix1 j))) ?_
  exact host_layer dot_S100000x128_S128x128_S100000x128_1_0_0_1_n_n rfl
    (addf (val_main_v26 (F := Ideal) x0 x1 x2 x4 x5 x6 x7) (val_main_v47 (F := Ideal) x0 x1 x2 x4 x5 x6 x7)) (val_main_v28 (F := Ideal) x8) (val_main_v30 (F := Ideal) x9)
    _ _ _

/-- The reference's layer ending at stage 90: the node update of the previous layer's result, its aggregated
    messages, and this layer's weights and biases. -/
theorem layer2 (x0 : (⟨S100000x1, .f32⟩ : BufTy).Contents (Elt Ideal)) (x1 : (⟨S2x1600000, .i32⟩ : BufTy).Contents (Elt Ideal)) (x2 : (⟨S1600000x1, .f32⟩ : BufTy).Contents (Elt Ideal)) (x4 : (⟨S1x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) :
    val_main_v90 (F := Ideal) x0 x1 x2 x4 x5 x6 x7 x8 x9 x10 x11
      = gine (R := 100000) (K := 128) (N := 128) (N' := 128) (val_main_v58 (F := Ideal) x0 x1 x2 x4 x5 x6 x7 x8 x9 x10 x11) (val_main_v79 (F := Ideal) x0 x1 x2 x4 x5 x6 x7 x8 x9 x10 x11)
          (val_main_v60 (F := Ideal) x8) (fun j => val_main_v62 (F := Ideal) x9 (ix1 j))
          (val_main_v64 (F := Ideal) x10) (fun j => val_main_v66 (F := Ideal) x11 (ix1 j)) := by
  unfold val_main_v90 val_main_v89 val_main_v88 val_main_v87 val_main_v86 val_main_v85 val_main_v84 val_main_v83 val_main_v82 val_main_v81 val_main_v80 val_main_call7_v0 val_main_call7_cst val_main_call8_v0 val_main_call8_cst gine
  refine (host_layer dot_S100000x128_S128x128_S100000x128_1_0_0_1_n_n rfl _ (val_main_v64 (F := Ideal) x10) (val_main_v66 (F := Ideal) x11)
    _ _ _).trans ?_
  refine congrArg (fun z => layer z (val_main_v64 (F := Ideal) x10) (fun j => val_main_v66 (F := Ideal) x11 (ix1 j))) ?_
  exact host_layer dot_S100000x128_S128x128_S100000x128_1_0_0_1_n_n rfl
    (addf (val_main_v58 (F := Ideal) x0 x1 x2 x4 x5 x6 x7 x8 x9 x10 x11) (val_main_v79 (F := Ideal) x0 x1 x2 x4 x5 x6 x7 x8 x9 x10 x11)) (val_main_v60 (F := Ideal) x8) (val_main_v62 (F := Ideal) x9)
    _ _ _

/-- The reference's layer ending at stage 122: the node update of the previous layer's result, its aggregated
    messages, and this layer's weights and biases. -/
theorem layer3 (x0 : (⟨S100000x1, .f32⟩ : BufTy).Contents (Elt Ideal)) (x1 : (⟨S2x1600000, .i32⟩ : BufTy).Contents (Elt Ideal)) (x2 : (⟨S1600000x1, .f32⟩ : BufTy).Contents (Elt Ideal)) (x4 : (⟨S1x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) :
    val_main_v122 (F := Ideal) x0 x1 x2 x4 x5 x6 x7 x8 x9 x10 x11
      = gine (R := 100000) (K := 128) (N := 128) (N' := 128) (val_main_v90 (F := Ideal) x0 x1 x2 x4 x5 x6 x7 x8 x9 x10 x11) (val_main_v111 (F := Ideal) x0 x1 x2 x4 x5 x6 x7 x8 x9 x10 x11)
          (val_main_v92 (F := Ideal) x8) (fun j => val_main_v94 (F := Ideal) x9 (ix1 j))
          (val_main_v96 (F := Ideal) x10) (fun j => val_main_v98 (F := Ideal) x11 (ix1 j)) := by
  unfold val_main_v122 val_main_v121 val_main_v120 val_main_v119 val_main_v118 val_main_v117 val_main_v116 val_main_v115 val_main_v114 val_main_v113 val_main_v112 val_main_call10_v0 val_main_call10_cst val_main_call11_v0 val_main_call11_cst gine
  refine (host_layer dot_S100000x128_S128x128_S100000x128_1_0_0_1_n_n rfl _ (val_main_v96 (F := Ideal) x10) (val_main_v98 (F := Ideal) x11)
    _ _ _).trans ?_
  refine congrArg (fun z => layer z (val_main_v96 (F := Ideal) x10) (fun j => val_main_v98 (F := Ideal) x11 (ix1 j))) ?_
  exact host_layer dot_S100000x128_S128x128_S100000x128_1_0_0_1_n_n rfl
    (addf (val_main_v90 (F := Ideal) x0 x1 x2 x4 x5 x6 x7 x8 x9 x10 x11) (val_main_v111 (F := Ideal) x0 x1 x2 x4 x5 x6 x7 x8 x9 x10 x11)) (val_main_v92 (F := Ideal) x8) (val_main_v94 (F := Ideal) x9)
    _ _ _

end Cert.ReferenceIdeal.Layers

end
-- ==== Proof.Walk.lean ====
/-
  The kernel program's buffers, followed from the launch to the return.

  The program is four regions among stretches of host operations.  A region writes its output array and nothing
  else; a host operation writes its result buffer and nothing else.  So a buffer's contents at any point of the
  program are found by walking back to the operation or region that wrote it, and from there to the launch arrays.
  Walking the six arrays a region finds at its entry, and applying the region's value (`gine` of those arrays),
  shows region by region that each output array is the reference's corresponding stage of the launch arrays:
  the host operations between the regions — the gather of source rows, the edge features added, the cut at zero,
  the scatter-add into target rows — are the same operations in both programs, and the reference's dense layers
  are `gine` too.  The program's result is then the reference's last stage.
-/
import proofs.«112437_j16664473109174_1_alg».proof.Proof.Gen.KernelIdeal.Frame
import proofs.«112437_j16664473109174_1_alg».proof.Proof.Gen.ReferenceIdeal.Read
import proofs.«112437_j16664473109174_1_alg».proof.Proof.Region0
import proofs.«112437_j16664473109174_1_alg».proof.Proof.Region1
import proofs.«112437_j16664473109174_1_alg».proof.Proof.Region2
import proofs.«112437_j16664473109174_1_alg».proof.Proof.Region3
import proofs.«112437_j16664473109174_1_alg».proof.Proof.RefLayers
import Idealize.ShloMosaic.Lib.StableHlo.Run

set_option maxRecDepth 16384
set_option maxHeartbeats 4000000

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)
open Cert.GineLayers

variable (m : (ℓ : Loc nD τ sig) → Buf (Elt Ideal) ℓ) (ρ : Dev nD → PrngReg) (c : Dev nD)

/-- Region 0 writes its output array only: every other buffer leaves it as it entered. -/
theorem W4_keep (b : Ref sig .tc) (hb : b ≠ main_v18) :
    W4 m ρ c (no_index (Proc.devRef .tc b)) = W3 m ρ c (Proc.devRef .tc b) := by
  by_cases h : ∃ w : Fin 7, Pipeline.arrRef spec0 w = b
  · obtain ⟨w, rfl⟩ := h
    have hin : (cfg0.win w).isOut = false := by
      fin_cases w <;> first | rfl | exact absurd rfl hb
    exact (W4_arr m ρ c w).trans (((dat0 (V3 m ρ) c).arrAt_in w hin _).trans (A_eq0 (V3 m ρ) c w))
  · exact W4_of_ne m ρ c b (fun w e => h ⟨w, e⟩)

/-- Region 1 writes its output array only: every other buffer leaves it as it entered. -/
theorem W8_keep (b : Ref sig .tc) (hb : b ≠ main_v42) :
    W8 m ρ c (no_index (Proc.devRef .tc b)) = W7 m ρ c (Proc.devRef .tc b) := by
  by_cases h : ∃ w : Fin 7, Pipeline.arrRef spec1 w = b
  · obtain ⟨w, rfl⟩ := h
    have hin : (cfg1.win w).isOut = false := by
      fin_cases w <;> first | rfl | exact absurd rfl hb
    exact (W8_arr m ρ c w).trans (((dat1 (V7 m ρ) c).arrAt_in w hin _).trans (A_eq1 (V7 m ρ) c w))
  · exact W8_of_ne m ρ c b (fun w e => h ⟨w, e⟩)

/-- Region 2 writes its output array only: every other buffer leaves it as it entered. -/
theorem W12_keep (b : Ref sig .tc) (hb : b ≠ main_v66) :
    W12 m ρ c (no_index (Proc.devRef .tc b)) = W11 m ρ c (Proc.devRef .tc b) := by
  by_cases h : ∃ w : Fin 7, Pipeline.arrRef spec2 w = b
  · obtain ⟨w, rfl⟩ := h
    have hin : (cfg2.win w).isOut = false := by
      fin_cases w <;> first | rfl | exact absurd rfl hb
    exact (W12_arr m ρ c w).trans (((dat2 (V11 m ρ) c).arrAt_in w hin _).trans (A_eq2 (V11 m ρ) c w))
  · exact W12_of_ne m ρ c b (fun w e => h ⟨w, e⟩)

/-- Region 3 writes its output array only: every other buffer leaves it as it entered. -/
theorem W16_keep (b : Ref sig .tc) (hb : b ≠ main_v90) :
    W16 m ρ c (no_index (Proc.devRef .tc b)) = W15 m ρ c (Proc.devRef .tc b) := by
  by_cases h : ∃ w : Fin 7, Pipeline.arrRef spec3 w = b
  · obtain ⟨w, rfl⟩ := h
    have hin : (cfg3.win w).isOut = false := by
      fin_cases w <;> first | rfl | exact absurd rfl hb
    exact (W16_arr m ρ c w).trans (((dat3 (V15 m ρ) c).arrAt_in w hin _).trans (A_eq3 (V15 m ρ) c w))
  · exact W16_of_ne m ρ c b (fun w e => h ⟨w, e⟩)

/-- Region 0's output array is the reference's stage 26 of the launch arrays. -/
theorem out0 : W4 m ρ c (no_index (Proc.devRef .tc main_v18)) = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine (W4_arr m ρ c 6).trans ((Region0.final (V3 m ρ) c).trans ?_)
  rw [Cert.ReferenceIdeal.Layers.layer0]
  unfold Region0.G
  have h0 : V3 m ρ c main_arg0 = (m ((c.tc : Thread nD τ).loc main_arg0)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep]
  have h1 : V3 m ρ c main_v15 = Cert.ReferenceIdeal.Read.val_main_v15 (F := Ideal) (m ((c.tc : Thread nD τ).loc main_arg0)) (m ((c.tc : Thread nD τ).loc main_arg1)) (m ((c.tc : Thread nD τ).loc main_arg2)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep]
    rfl
  have h2 : V3 m ρ c main_arg4 = (m ((c.tc : Thread nD τ).loc main_arg4)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep]
  have h3 : (fun j : Fin 128 => (V3 m ρ c main_v16 : S1x128.Idx → EReal) (ix2 (0 : Fin 1) j)) = fun j => (m ((c.tc : Thread nD τ).loc main_arg5)) (ix1 j) := by
    have e : V3 m ρ c main_v16 = shapeCast S1x128 (m ((c.tc : Thread nD τ).loc main_arg5)) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep]
      rfl
    funext j; rw [e]; exact biasRow_apply _ _ j
  have h4 : V3 m ρ c main_arg6 = (m ((c.tc : Thread nD τ).loc main_arg6)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep]
  have h5 : (fun j : Fin 128 => (V3 m ρ c main_v17 : S1x128.Idx → EReal) (ix2 (0 : Fin 1) j)) = fun j => (m ((c.tc : Thread nD τ).loc main_arg7)) (ix1 j) := by
    have e : V3 m ρ c main_v17 = shapeCast S1x128 (m ((c.tc : Thread nD τ).loc main_arg7)) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep]
      rfl
    funext j; rw [e]; exact biasRow_apply _ _ j
  rw [h0, h1, h2, h3, h4, h5]

/-- Region 1's output array is the reference's stage 58 of the launch arrays. -/
theorem out1 : W8 m ρ c (no_index (Proc.devRef .tc main_v42)) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W8_arr m ρ c 6).trans ((Region1.final (V7 m ρ) c).trans ?_)
  rw [Cert.ReferenceIdeal.Layers.layer1]
  unfold Region1.G
  have h0 : V7 m ρ c main_v18 = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0]
  have h1 : V7 m ρ c main_v31 = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0]
    rfl
  have h2 : V7 m ρ c main_v33 = Cert.ReferenceIdeal.Read.val_main_v28 (F := Ideal) (m ((c.tc : Thread nD τ).loc main_arg8)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0]
    rfl
  have h3 : (fun j : Fin 128 => (V7 m ρ c main_v40 : S1x128.Idx → EReal) (ix2 (0 : Fin 1) j)) = fun j => Cert.ReferenceIdeal.Read.val_main_v30 (F := Ideal) (m ((c.tc : Thread nD τ).loc main_arg9)) (ix1 j) := by
    have e : V7 m ρ c main_v40 = shapeCast S1x128 (Cert.ReferenceIdeal.Read.val_main_v30 (F := Ideal) (m ((c.tc : Thread nD τ).loc main_arg9))) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0]
      rfl
    funext j; rw [e]; exact biasRow_apply _ _ j
  have h4 : V7 m ρ c main_v37 = Cert.ReferenceIdeal.Read.val_main_v32 (F := Ideal) (m ((c.tc : Thread nD τ).loc main_arg10)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0]
    rfl
  have h5 : (fun j : Fin 128 => (V7 m ρ c main_v41 : S1x128.Idx → EReal) (ix2 (0 : Fin 1) j)) = fun j => Cert.ReferenceIdeal.Read.val_main_v34 (F := Ideal) (m ((c.tc : Thread nD τ).loc main_arg11)) (ix1 j) := by
    have e : V7 m ρ c main_v41 = shapeCast S1x128 (Cert.ReferenceIdeal.Read.val_main_v34 (F := Ideal) (m ((c.tc : Thread nD τ).loc main_arg11))) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0]
      rfl
    funext j; rw [e]; exact biasRow_apply _ _ j
  rw [h0, h1, h2, h3, h4, h5]

/-- Region 2's output array is the reference's stage 90 of the launch arrays. -/
theorem out2 : W12 m ρ c (no_index (Proc.devRef .tc main_v66)) = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W12_arr m ρ c 6).trans ((Region2.final (V11 m ρ) c).trans ?_)
  rw [Cert.ReferenceIdeal.Layers.layer2]
  unfold Region2.G
  have h0 : V11 m ρ c main_v42 = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1]
  have h1 : V11 m ρ c main_v55 = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1]
    rfl
  have h2 : V11 m ρ c main_v57 = Cert.ReferenceIdeal.Read.val_main_v60 (F := Ideal) (m ((c.tc : Thread nD τ).loc main_arg8)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1]
    rfl
  have h3 : (fun j : Fin 128 => (V11 m ρ c main_v64 : S1x128.Idx → EReal) (ix2 (0 : Fin 1) j)) = fun j => Cert.ReferenceIdeal.Read.val_main_v62 (F := Ideal) (m ((c.tc : Thread nD τ).loc main_arg9)) (ix1 j) := by
    have e : V11 m ρ c main_v64 = shapeCast S1x128 (Cert.ReferenceIdeal.Read.val_main_v62 (F := Ideal) (m ((c.tc : Thread nD τ).loc main_arg9))) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1]
      rfl
    funext j; rw [e]; exact biasRow_apply _ _ j
  have h4 : V11 m ρ c main_v61 = Cert.ReferenceIdeal.Read.val_main_v64 (F := Ideal) (m ((c.tc : Thread nD τ).loc main_arg10)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1]
    rfl
  have h5 : (fun j : Fin 128 => (V11 m ρ c main_v65 : S1x128.Idx → EReal) (ix2 (0 : Fin 1) j)) = fun j => Cert.ReferenceIdeal.Read.val_main_v66 (F := Ideal) (m ((c.tc : Thread nD τ).loc main_arg11)) (ix1 j) := by
    have e : V11 m ρ c main_v65 = shapeCast S1x128 (Cert.ReferenceIdeal.Read.val_main_v66 (F := Ideal) (m ((c.tc : Thread nD τ).loc main_arg11))) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1]
      rfl
    funext j; rw [e]; exact biasRow_apply _ _ j
  rw [h0, h1, h2, h3, h4, h5]

/-- Region 3's output array is the reference's stage 122 of the launch arrays. -/
theorem out3 : W16 m ρ c (no_index (Proc.devRef .tc main_v90)) = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W16_arr m ρ c 6).trans ((Region3.final (V15 m ρ) c).trans ?_)
  rw [Cert.ReferenceIdeal.Layers.layer3]
  unfold Region3.G
  have h0 : V15 m ρ c main_v66 = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2]
  have h1 : V15 m ρ c main_v79 = Cert.ReferenceIdeal.Read.val_main_v111 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2]
    rfl
  have h2 : V15 m ρ c main_v81 = Cert.ReferenceIdeal.Read.val_main_v92 (F := Ideal) (m ((c.tc : Thread nD τ).loc main_arg8)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2]
    rfl
  have h3 : (fun j : Fin 128 => (V15 m ρ c main_v88 : S1x128.Idx → EReal) (ix2 (0 : Fin 1) j)) = fun j => Cert.ReferenceIdeal.Read.val_main_v94 (F := Ideal) (m ((c.tc : Thread nD τ).loc main_arg9)) (ix1 j) := by
    have e : V15 m ρ c main_v88 = shapeCast S1x128 (Cert.ReferenceIdeal.Read.val_main_v94 (F := Ideal) (m ((c.tc : Thread nD τ).loc main_arg9))) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2]
      rfl
    funext j; rw [e]; exact biasRow_apply _ _ j
  have h4 : V15 m ρ c main_v85 = Cert.ReferenceIdeal.Read.val_main_v96 (F := Ideal) (m ((c.tc : Thread nD τ).loc main_arg10)) := by
    simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2]
    rfl
  have h5 : (fun j : Fin 128 => (V15 m ρ c main_v89 : S1x128.Idx → EReal) (ix2 (0 : Fin 1) j)) = fun j => Cert.ReferenceIdeal.Read.val_main_v98 (F := Ideal) (m ((c.tc : Thread nD τ).loc main_arg11)) (ix1 j) := by
    have e : V15 m ρ c main_v89 = shapeCast S1x128 (Cert.ReferenceIdeal.Read.val_main_v98 (F := Ideal) (m ((c.tc : Thread nD τ).loc main_arg11))) shapeCasts_S128_S1x128 := by
      simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2]
      rfl
    funext j; rw [e]; exact biasRow_apply _ _ j
  rw [h0, h1, h2, h3, h4, h5]

/-- The program's result buffer at the return is the reference's last stage of the launch arrays. -/
theorem result : W17 m ρ c (Proc.devRef .tc main_v106) = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  simp (disch := decide) only [V3, V7, V11, V15, W1, W2, W3, W5, W6, W7, W9, W10, W11, W13, W14, W15, W17, hostOps0, hostOps0_1, hostOps0_2, hostOps1, hostOps1_1, hostOps1_2, hostOps2, hostOps2_1, hostOps2_2, hostOps3, hostOps3_1, hostOps3_2, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_keep, W8_keep, W12_keep, W16_keep, out0, out1, out2, out3]
  rfl

end Cert.KernelIdeal.Walk

end
-- ==== Proof.lean ====
/-
  The certificate of the graph network's forward pass: four message-passing layers, mean pooling per graph, a linear
  classifier.

  Both programs gather each edge's source features, add the edge's feature, cut at zero, and scatter-add into the
  target nodes; both then update every node by a two-layer perceptron of its features plus its aggregated messages.
  The kernel program computes that update in a kernel region, twenty blocks of 5000 nodes at a time, with the
  operands of its matrix products narrowed to bf16; the reference computes it with whole-array host operations.
  Over the extended reals a change of float format is the identity and a matrix product into a zero accumulator is
  the plain sum of products, so a region's output array is the same function `gine` of the arrays it finds as the
  reference's layer is of its stage before (Region0 … Region3, RefLayers).  Everything else — the index handling,
  the gathers and scatter-adds, the pooling, the division by the clamped counts, the classifier — is the same host
  operations applied to equal arrays (Walk).  So the two results are one function of the launch arrays, and no
  property of the inputs is used.

  The three frames are the generated ones (the reference's is its generated run with the result dropped); the ideal
  pass rewrote nothing, so the idealized kernel is the kernel's idealization trivially.
-/
import proofs.«112437_j16664473109174_1_alg».proof.Defs
import proofs.«112437_j16664473109174_1_alg».proof.Proof.Gen.Kernel
import proofs.«112437_j16664473109174_1_alg».proof.Proof.Gen.Kernel.Skeleton
import proofs.«112437_j16664473109174_1_alg».proof.Proof.Gen.Kernel.Launch
import proofs.«112437_j16664473109174_1_alg».proof.Proof.Gen.Kernel.Points
import proofs.«112437_j16664473109174_1_alg».proof.Proof.Gen.Kernel.Frame
import proofs.«112437_j16664473109174_1_alg».proof.Proof.Gen.KernelIdeal
import proofs.«112437_j16664473109174_1_alg».proof.Proof.Gen.KernelIdeal.Skeleton
import proofs.«112437_j16664473109174_1_alg».proof.Proof.Gen.KernelIdeal.Launch
import proofs.«112437_j16664473109174_1_alg».proof.Proof.Gen.KernelIdeal.Points
import proofs.«112437_j16664473109174_1_alg».proof.Proof.Gen.KernelIdeal.Frame
import proofs.«112437_j16664473109174_1_alg».proof.Proof.Gen.ReferenceIdeal
import proofs.«112437_j16664473109174_1_alg».proof.Proof.Gen.ReferenceIdeal.Run
import proofs.«112437_j16664473109174_1_alg».proof.Proof.Gen.ReferenceIdeal.Read
import proofs.«112437_j16664473109174_1_alg».proof.Proof.Gen.Pre_finite_inputs
import proofs.«112437_j16664473109174_1_alg».proof.Proof.RunNamed
import proofs.«112437_j16664473109174_1_alg».proof.Proof.Walk
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the reference's last stage of the launch arrays in their result buffers. -/
theorem algebraic : Cert.algebraic_KernelIdeal_ReferenceIdeal := by
  intro m ρ m' ρ' _ hagree
  refine ⟨fun c => Cert.ReferenceIdeal.Read.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Walk.result m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v138_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
